-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000x128 : Shape := ⟨2, ![320000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S128x1 .f32) (main_arg5 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S320000x128 .f32) (main_arg1 : FVec F S320000x128 .f32) (main_arg2 : FVec F S256x128 .f32) (main_arg3 : FVec F S128 .f32) (main_arg4 : FVec F S128x1 .f32) (main_arg5 : FVec F S1 .f32) : IVec S_ 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : FVec F S320000x128 .f32 := Host.absf main_arg1
  let main_cst_0 : FVec F S_ .f32 := constant S_ .f32 0x7F800000#32
  let main_v5 : FVec F S320000x128 .f32 := broadcastInDim S320000x128 ![] bcast_S_S320000x128 main_cst_0
  let main_v6 : IVec S320000x128 1 := cmpf .olt main_v4 main_v5
  let main_c_1 : IVec S_ 1 := constantI S_ 1 1#1
  let main_v7 : IVec S_ 1 := (fun x v => Host.reduce IntOp.andi x v reducesTo_S320000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S320000x128 : Shape := ⟨2, ![320000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S128x128 : Shape := ⟨2, ![128, 128]⟩
abbrev S1x128 : Shape := ⟨2, ![1, 128]⟩
abbrev S1x1 : Shape := ⟨2, ![1, 1]⟩
abbrev S320000x1 : Shape := ⟨2, ![320000, 1]⟩
abbrev S2560x128 : Shape := ⟨2, ![2560, 128]⟩
abbrev S2560x1 : Shape := ⟨2, ![2560, 1]⟩
abbrev S2560 : Shape := ⟨1, ![2560]⟩

abbrev nBuf : Space → Nat
  | .hbm => 14
  | .vmem => 11
  | .smem => 0
  | _ => 0

abbrev bufTy : (tb : Table) → Fin (tcTables nBuf tb) → BufTy
  | .hbm, ⟨0, _⟩ => ⟨S320000x128, .f32⟩
  | .hbm, ⟨1, _⟩ => ⟨S320000x128, .f32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S128x128, .f32⟩
  | .hbm, ⟨7, _⟩ => ⟨S128x128, .bf16⟩
  | .hbm, ⟨8, _⟩ => ⟨S128x128, .f32⟩
  | .hbm, ⟨9, _⟩ => ⟨S128x128, .bf16⟩
  | .hbm, ⟨10, _⟩ => ⟨S1x128, .f32⟩
  | .hbm, ⟨11, _⟩ => ⟨S1x128, .f32⟩
  | .hbm, ⟨12, _⟩ => ⟨S1x1, .f32⟩
  | .hbm, ⟨13, _⟩ => ⟨S320000x1, .f32⟩
  | .local _ .vmem, ⟨0, _⟩ => ⟨S2560x128, .f32⟩
  | .local _ .vmem, ⟨1, _⟩ => ⟨S2560x128, .f32⟩
  | .local _ .vmem, ⟨2, _⟩ => ⟨S2560x128, .f32⟩
  | .local _ .vmem, ⟨3, _⟩ => ⟨S2560x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S1x128, .f32⟩
  | .local _ .vmem, ⟨8, _⟩ => ⟨S1x1, .f32⟩
  | .local _ .vmem, ⟨9, _⟩ => ⟨S2560x1, .f32⟩
  | .local _ .vmem, ⟨10, _⟩ => ⟨S2560x1, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2560x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2560x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2560x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S256x128_S128x128_0_0 : S256x128.Slices ![0, 0] S128x128
  bitsLt_bf16_f32 : FTy.bits .bf16 < FTy.bits .f32
  slices_S256x128_S128x128_128_0 : S256x128.Slices ![128, 0] S128x128
  shapeCasts_S128_S1x128 : S128.ShapeCasts S1x128
  shapeCasts_S128x1_S1x128 : S128x1.ShapeCasts S1x128
  shapeCasts_S1_S1x1 : S1.ShapeCasts S1x1
  inb_S2560x128_S2560x128_0_0 : ∀ a, (![0, 0] : Fin 2 → Nat) a + S2560x128.size a ≤ S2560x128.size a
  h_S2560x128 : 0 < S2560x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2560x128 : S1x128.Broadcasts S2560x128
  reduces_S2560x128_S2560 : S2560x128.Reduces [1] S2560
  shapeCasts_S2560_S2560x1 : S2560.ShapeCasts S2560x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2560x1 : S1x1.Broadcasts S2560x1
  inb_S2560x1_S2560x1_0_0 : ∀ a, (![0, 0] : Fin 2 → Nat) a + S2560x1.size a ≤ S2560x1.size a
  h_S2560x1 : 0 < S2560x1.numel
  dot_S2560x128_S128x128_S2560x128_1_0_0_1_n_n_wf : DotDims.WF S2560x128 S128x128 S2560x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x128.size a ≤ S320000x128.size a
  hwx0_0 : ∀ i : grid0.Coords, EltTy.bits .f32 = 32 ∨ (Rect.block (s := S320000x128) S2560x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2560x128.size a ≤ S320000x128.size a
  hwx0_1 : ∀ i : grid0.Coords, EltTy.bits .f32 = 32 ∨ (Rect.block (s := S320000x128) S2560x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2560x1.size a ≤ S320000x1.size a
  hwx0_7 : ∀ i : grid0.Coords, EltTy.bits .f32 = 32 ∨ (Rect.block (s := S320000x1) S2560x1.size (cc0_transform_7 i) (hinb0_7 i)).WholeWords (EltTy.packing .f32)

variable [Facts₀]

def dot_S2560x128_S128x128_S2560x128_1_0_0_1_n_n : DotDims S2560x128 S128x128 S2560x128 where
  lhsContracting := [1]
  rhsContracting := [0]
  lhsNonContracting := [0]
  rhsNonContracting := [1]
  lhsBatch := []
  rhsBatch := []
  wf := dot_S2560x128_S128x128_S2560x128_1_0_0_1_n_n_wf

abbrev win0_0 : Pipeline.Window sig grid0 :=
  Pipeline.Window.ofSpec (Memref.whole main_arg0) S2560x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2560x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S2560x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S320000x128 : Shape := ⟨2, ![320000, 128]⟩
abbrev S256x128 : Shape := ⟨2, ![256, 128]⟩
abbrev S128 : Shape := ⟨1, ![128]⟩
abbrev S128x1 : Shape := ⟨2, ![128, 1]⟩
abbrev S1 : Shape := ⟨1, ![1]⟩
abbrev S320000x256 : Shape := ⟨2, ![320000, 256]⟩
abbrev S1x128 : Shape := ⟨2, ![1, 128]⟩
abbrev S_ : Shape := ⟨0, ![]⟩
abbrev S320000x1 : Shape := ⟨2, ![320000, 1]⟩
abbrev S1x1 : Shape := ⟨2, ![1, 1]⟩

abbrev nBuf : Space → Nat
  | .hbm => 18
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000x128, .f32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S320000x256, .f32⟩
  | .hbm, ⟨7, _⟩ => ⟨S320000x128, .f32⟩
  | .hbm, ⟨8, _⟩ => ⟨S1x128, .f32⟩
  | .hbm, ⟨9, _⟩ => ⟨S320000x128, .f32⟩
  | .hbm, ⟨10, _⟩ => ⟨S320000x128, .f32⟩
  | .hbm, ⟨11, _⟩ => ⟨S_, .f32⟩
  | .hbm, ⟨12, _⟩ => ⟨S320000x128, .f32⟩
  | .hbm, ⟨13, _⟩ => ⟨S320000x128, .f32⟩
  | .hbm, ⟨14, _⟩ => ⟨S320000x1, .f32⟩
  | .hbm, ⟨15, _⟩ => ⟨S1x1, .f32⟩
  | .hbm, ⟨16, _⟩ => ⟨S320000x1, .f32⟩
  | .hbm, ⟨17, _⟩ => ⟨S320000x1, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  concatenates_S320000x128_S320000x128_S320000x256_d1 : Shape.Concatenates [S320000x128, S320000x128] S320000x256 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  dot_S320000x256_S256x128_S320000x128_1_0_0_1_n_n_wf : DotDims.WF S320000x256 S256x128 S320000x128 [1] [0] [0] [1] [] []
  dot_S320000x128_S128x1_S320000x1_1_0_0_1_n_n_wf : DotDims.WF S320000x128 S128x1 S320000x1 [1] [0] [0] [1] [] []

variable [Facts₀]

def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf
def dot_S320000x128_S128x1_S320000x1_1_0_0_1_n_n : DotDims S320000x128 S128x1 S320000x1 where
  lhsContracting := [1]
  rhsContracting := [0]
  lhsNonContracting := [0]
  rhsNonContracting := [1]
  lhsBatch := []
  rhsBatch := []
  wf := dot_S320000x128_S128x1_S320000x1_1_0_0_1_n_n_wf

class Facts : Prop extends Facts₀ where

variable [Facts]
-- ==== Proof.EdgeScore.lean ====
/-
  An edge scorer: two feature rows through one hidden layer with a rectifier, then one output unit.

  An edge carries a source row s and a destination row d, 128 features each. The hidden layer has 128 units; its weight
  is a [256, 128] matrix whose first 128 rows act on s and whose last 128 rows act on d. Unit j of the hidden layer is
      h j = max ((Σ_k s k · A k j) + (Σ_k d k · B k j) + b₁ j) 0,
  with A and B the upper and lower halves of the weight, and the edge's score is
      (Σ_j h j · w₂ j) + b₂.
  `rowScore` is this number from the two rows, the two halves and the remaining parameters given as plain functions;
  `score` is the [320000, 1] array of the scores of 320000 edges, read off the six argument arrays.

  The one law used later: a sum over the 256 rows of the weight is the sum over its first 128 rows plus the sum over its
  last 128 rows. It regroups a finite sum in a commutative monoid, so it holds on the extended reals with no
  finiteness assumption.
-/
import Idealize.ShloMosaic.PureOps.Ideal
import Idealize.ShloMosaic.Lib.ValueIdx

noncomputable section

open scoped BigOperators

namespace Cert.EdgeScore

open Idealize.ShloMosaic Idealize.ShloMosaic.ValueIdx

/-- Row k of the upper half of a 256-row matrix. -/
abbrev upper (k : Fin 128) : Fin 256 := ⟨k.val, by omega⟩

/-- Row k of the lower half: row 128 + k of the matrix. -/
abbrev lower (k : Fin 128) : Fin 256 := ⟨128 + k.val, by omega⟩

/-- A sum over 256 positions is the sum over the first 128 plus the sum over the last 128. -/
theorem sum_halves {M : Type*} [AddCommMonoid M] (f : Fin 256 → M) :
    ∑ k : Fin 256, f k = (∑ k : Fin 128, f (upper k)) + ∑ k : Fin 128, f (lower k) :=
  Fin.sum_univ_add (a := 128) (b := 128) f

/-- One edge's score. -/
def rowScore (s d : Fin 128 → EReal) (A B : Fin 128 → Fin 128 → EReal) (b₁ w₂ : Fin 128 → EReal) (b₂ : EReal) : EReal :=
  (∑ j : Fin 128, max (((∑ k : Fin 128, s k * A k j) + ∑ k : Fin 128, d k * B k j) + b₁ j)
      (Ideal.ofBits .f32 0x00000000#32) * w₂ j) + b₂

/-- The scores of all edges, as one function of the six argument arrays: row e of `src` and of `dst` are edge e's two
    feature rows, `W1`'s upper and lower halves the two halves of the hidden layer's weight. -/
def score (src dst : FVec Ideal ⟨2, ![320000, 128]⟩ .f32) (W1 : FVec Ideal ⟨2, ![256, 128]⟩ .f32)
    (b1 : FVec Ideal ⟨1, ![128]⟩ .f32) (W2 : FVec Ideal ⟨2, ![128, 1]⟩ .f32) (b2 : FVec Ideal ⟨1, ![1]⟩ .f32) :
    FVec Ideal ⟨2, ![320000, 1]⟩ .f32 := fun i =>
  rowScore (fun k => src (ix2 (i 0) k)) (fun k => dst (ix2 (i 0) k))
    (fun k j => W1 (ix2 (upper k) j)) (fun k j => W1 (ix2 (lower k) j))
    (fun j => b1 (ix1 j)) (fun j => W2 (ix2 j (0 : Fin 1))) (b2 (ix1 (0 : Fin 1)))

end Cert.EdgeScore

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibRowReduce.lean ====
/-
  A row's maximum and a row's sum, as a kernel and as the host compute them.

  For an array `v : [R, C]` reduced along its second axis, over the extended reals: the kernel's lane maximum from the
  word of `-∞` and the host's reduce with a maximum body from the same word are both the fold of `max` over the row's
  `C` entries; the kernel's lane sum and the host's sum from zero are both the plain sum of the row's entries. Also the
  two small facts that go with them: `max (-∞) y = y`, and a vector `[R]` recast as a column `[R, 1]` reads its row.
-/
import Mathlib
import Idealize.ShloMosaic.PureOps.Ideal
import Idealize.ShloMosaic.PureOps.Ideal.Laws
import Idealize.ShloMosaic.Lib.Pipeline.Value
import Idealize.ShloMosaic.Lib.ValueIdx

noncomputable section

open scoped BigOperators

namespace Cert.LibRowReduce

open Idealize.ShloMosaic Idealize.ShloMosaic.ValueIdx

variable {R C : Nat}

/-- The maximum of `C` extended reals, folded from the f32 word of `-∞`. -/
def rowMax (f : Fin C → EReal) : EReal :=
  (Finset.univ : Finset (Fin C)).fold max (Ideal.ofBits .f32 0xFF800000#32) f

/-- The f32 word `0xFF800000` is `-∞`, the identity of `max`. -/
theorem max_negInf (y : EReal) : max (Ideal.ofBits .f32 0xFF800000#32) y = y := by
  simp [Ideal.ofBits, Ideal.ieee]

/-- The reduced index `r` with lane `k` put back is `(r, k)`. -/
theorem lift_row (h : (⟨2, ![R, C]⟩ : Shape).Reduces [1] (⟨1, ![R]⟩ : Shape)) (r : Fin R)
    (k : Fin ((⟨2, ![R, C]⟩ : Shape).size 1)) : h.lift (ix1 r) k = ix2 r (⟨k.val, k.isLt⟩ : Fin C) := by
  funext c; apply Fin.ext
  fin_cases c <;> rfl

/-- The kernel's lane maximum of row `r`. -/
theorem multiReduction_max_row (src : FVec Ideal ⟨2, ![R, C]⟩ .f32)
    (h : (⟨2, ![R, C]⟩ : Shape).Reduces [1] (⟨1, ![R]⟩ : Shape)) (hφ : FKind.Formats .f32)
    (hacc : (0xFF800000#32 : BitVec 32) = FKind.maximumf.neutral .f32 hφ) (r : Fin R) :
    multiReduction .maximumf [1] (⟨1, ![R]⟩ : Shape) src 0xFF800000#32 h hφ hacc (ix1 r) = rowMax fun k => src (ix2 r k) := by
  rw [Ideal.multiReduction_maximumf_single src _ h hφ hacc (ix1 r)]
  have hf : (src ∘ h.lift (ix1 r)) = fun k : Fin C => src (ix2 r k) :=
    funext fun k => congrArg src (lift_row h r k)
  unfold rowMax
  exact congrArg (fun f => Finset.fold max (Ideal.ofBits .f32 0xFF800000#32) f (Finset.univ : Finset (Fin C))) hf

/-- The host's reduce with a maximum body along axis 1, from the word of `-∞`, at row `r`. -/
theorem hostReduce_max_row (x : FVec Ideal ⟨2, ![R, C]⟩ .f32) (init : (⟨0, ![]⟩ : Shape).Idx → Ideal .f32)
    (hinit : ∀ i, init i = Ideal.ofBits .f32 0xFF800000#32)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduce FloatOps.maximumf x init h' hu (ix1 r) = rowMax fun k => x (ix2 r k) := by
  rw [Host.reduce_eq_fold_single FloatOps.maximumf x _ h' h hu, hinit]
  have hf : (x ∘ h.lift (ix1 r)) = fun k : Fin C => x (ix2 r k) :=
    funext fun k => congrArg x (lift_row h r k)
  unfold rowMax
  exact congrArg (fun f => Finset.fold max (Ideal.ofBits .f32 0xFF800000#32) f (Finset.univ : Finset (Fin C))) hf

/-- The kernel's lane sum of row `r`. -/
theorem multiReduction_add_row (src : FVec Ideal ⟨2, ![R, C]⟩ .f32)
    (h : (⟨2, ![R, C]⟩ : Shape).Reduces [1] (⟨1, ![R]⟩ : Shape)) (hφ : FKind.Formats .f32)
    (hacc : (0x00000000#32 : BitVec 32) = FKind.add.neutral .f32 hφ) (r : Fin R) :
    multiReduction .add [1] (⟨1, ![R]⟩ : Shape) src 0x00000000#32 h hφ hacc (ix1 r) = ∑ k : Fin C, src (ix2 r k) := by
  rw [Ideal.multiReduction_add_single src _ h hφ hacc (ix1 r)]
  refine Finset.sum_congr rfl fun k _ => ?_
  exact congrArg src (lift_row h r k)

/-- The host's sum along axis 1 from zero, at row `r`. -/
theorem hostReduceAdd_row (x : FVec Ideal ⟨2, ![R, C]⟩ .f32) (init : (⟨0, ![]⟩ : Shape).Idx → Ideal .f32)
    (hinit : ∀ i, init i = 0)
    (h' : (⟨2, ![R, C]⟩ : Shape).ReducesTo [1] (⟨1, ![R]⟩ : Shape)) (h : (⟨2, ![R, C]⟩ : Shape).Reduces [1] (⟨1, ![R]⟩ : Shape))
    (hu : 0 < (⟨0, ![]⟩ : Shape).numel) (r : Fin R) :
    Host.reduceAdd (F := Ideal) x init h' hu (ix1 r) = ∑ k : Fin C, x (ix2 r k) := by
  show Ideal.hostReduceAdd h' x (init (Shape.Idx.first hu)) (ix1 r) = _
  rw [Ideal.hostReduceAdd_single h' h, hinit, zero_add]
  refine Finset.sum_congr rfl fun k _ => ?_
  exact congrArg x (lift_row h r k)

/-- A vector `[R]` recast as a column `[R, 1]` reads its row. -/
theorem shapeCast_col_apply {α : Type} (v : (⟨1, ![R]⟩ : Shape).Idx → α) (h : (⟨1, ![R]⟩ : Shape).ShapeCasts ⟨2, ![R, 1]⟩)
    (r : Fin R) : shapeCast ⟨2, ![R, 1]⟩ v h (ix2 r (0 : Fin 1)) = v (ix1 r) := by
  refine shapeCast_apply v h _ _ ?_
  rw [Shape.rowMajor_val_two, Shape.rowMajor_val_one]
  show r.val = r.val * 1 + 0
  omega

end Cert.LibRowReduce

end
-- ==== Proof.BlockScore.lean ====
/-
  What the kernel's body computes for one row of its block.

  The body works on a block of 2560 edges. It loads the block's source rows x0 and destination rows x1 ([2560, 128] each),
  the two halves x2, x3 of the hidden layer's weight ([128, 128] each), the bias x4 and the output weight x5 as single
  rows [1, 128], and the offset x6 as a [1, 1] array. Row p of what it stores is
      (Σ_j max ((Σ_k x0[p,k]·x2[k,j]) + (Σ_k x1[p,k]·x3[k,j]) + x4[0,j]) 0 · x5[0,j]) + x6[0,0]:
  each matrix product into a zero accumulator is the plain sum over the contracted axis, a change of float format is the
  identity on the extended reals, the single rows are repeated down the block, and the lane sum from zero is the plain
  sum of the row. That is `EdgeScore.rowScore` of row p of the two feature blocks and the loaded parameters.
-/
import proofs.«111625_g24455543783494_cont_8to1_600_4_alg».proof.Proof.Gen.KernelIdeal.Skeleton
import proofs.«111625_g24455543783494_cont_8to1_600_4_alg».proof.Proof.EdgeScore
import proofs.«111625_g24455543783494_cont_8to1_600_4_alg».proof.Proof.LibDotRows
import proofs.«111625_g24455543783494_cont_8to1_600_4_alg».proof.Proof.LibRowReduce
import Idealize.ShloMosaic.Lib.ValueLayout
import Idealize.ShloMosaic.Lib.Pipeline.Value

noncomputable section

open scoped BigOperators

namespace Cert.KernelIdeal.BlockScore

open Cert.KernelIdeal Cert.KernelIdeal.Gen Idealize.ShloMosaic Idealize.ShloMosaic.ValueIdx Cert.EdgeScore

/-- The body's two products contract axis 1 of a [2560, 128] operand with axis 0 of a [128, 128] one. -/
theorem dims_plain : dot_S2560x128_S128x128_S2560x128_1_0_0_1_n_n = DotDims.plain 2560 128 128 := rfl

/-- Row p of the stored block is the score of the edge whose feature rows are row p of the two loaded blocks. -/
theorem payload_apply (x0 x1 : Vec Ideal S2560x128 .f32) (x2 x3 : Vec Ideal S128x128 .bf16)
    (x4 x5 : Vec Ideal S1x128 .f32) (x6 : Vec Ideal S1x1 .f32) (p : Fin 2560) :
    k0_pay1 (F := Ideal) x0 x1 x2 x3 x4 x5 x6 (ix2 p (0 : Fin 1))
      = rowScore (fun k => x0 (ix2 p k)) (fun k => x1 (ix2 p k)) (fun k j => x2 (ix2 k j)) (fun k j => x3 (ix2 k j))
          (fun j => x4 (ix2 (0 : Fin 1) j)) (fun j => x5 (ix2 (0 : Fin 1) j)) (x6 (ix2 (0 : Fin 1) (0 : Fin 1))) := by
  unfold k0_pay1 rowScore
  simp only [shapeCast_self]
  rw [addf_apply, Cert.LibRowReduce.shapeCast_col_apply, broadcastTo_1b_ab_apply]
  congr 1
  refine (Cert.LibRowReduce.multiReduction_add_row _ _ _ _ p).trans ?_
  refine Finset.sum_congr rfl fun j _ => ?_
  rw [mulf_apply, maximumf_apply, addf_apply, addf_apply, broadcastTo_1b_ab_apply, broadcastTo_1b_ab_apply,
    broadcast_apply, dims_plain, Cert.Lib.DotRows.matmul_plain_apply, Cert.Lib.DotRows.matmul_plain_apply]
  rfl

end Cert.KernelIdeal.BlockScore

end
-- ==== Proof.Operands.lean ====
/-
  What the kernel's body is handed at a grid point.

  The grid has 125 points; point t works on edges 2560·t … 2560·t + 2559. Seven arrays are staged for the body:
    * the source and destination features, of which point t gets rows 2560·t … 2560·t + 2559;
    * the two halves of the hidden layer's weight, cut from the [256, 128] argument before the launch (rows 0 … 127 and
      rows 128 … 255; the change of float format that follows is the identity on the extended reals);
    * the bias [128] recast as one row [1, 128], the output weight [128, 1] recast as one row [1, 128], the offset [1]
      recast as [1, 1] — a recast keeps the row-major order of the entries;
  and the last five are handed over whole at every point. Each lemma below reads one of these at an index in terms of the
  argument arrays as launched.
-/
import proofs.«111625_g24455543783494_cont_8to1_600_4_alg».proof.Proof.Gen.KernelIdeal.Frame
import proofs.«111625_g24455543783494_cont_8to1_600_4_alg».proof.Proof.EdgeScore
import Idealize.ShloMosaic.Lib.ValueLayout
import Idealize.ShloMosaic.Lib.Pipeline.Value
import Idealize.ShloMosaic.Lib.StableHlo.Run
import Idealize.ShloMosaic.Lib.Tactic

noncomputable section

namespace Cert.KernelIdeal.Operands

open Cert.KernelIdeal Cert.KernelIdeal.Gen Idealize.ShloMosaic Idealize.ShloMosaic.TcCoe Idealize.SL.Sem
open Idealize.ShloMosaic.ValueIdx Cert.EdgeScore Idealize.ShloMosaic.StableHlo

variable (m : (ℓ : Loc nD τ sig) → Buf (Elt Ideal) ℓ)

/-! ## The arrays written before the launch -/

/-- The first staged weight is the upper half of the [256, 128] argument. -/
theorem upperHalf_apply (c : Dev nD) (k j : Fin 128) :
    (V m c main_v1 : S128x128.Idx → EReal) (ix2 k j)
      = (m ((c : Thread nD τ).loc main_arg2) : S256x128.Idx → EReal) (ix2 (upper k) j) := by
  have e : (V m c main_v1 : S128x128.Idx → EReal)
      = truncf (F := Ideal) .bf16 (extractStridedSlice S128x128 ![0, 0]
          (m ((c : Thread nD τ).loc main_arg2) : S256x128.Idx → EReal) slices_S256x128_S128x128_0_0) bitsLt_bf16_f32 := by
    dsimp only [V, hostOps0]; after_results <;> rfl
  rw [e, truncf_apply]
  exact slice2_axis0_apply 0 _ _ k j (upper k) (Nat.zero_add _).symm

/-- The second staged weight is the lower half. -/
theorem lowerHalf_apply (c : Dev nD) (k j : Fin 128) :
    (V m c main_v3 : S128x128.Idx → EReal) (ix2 k j)
      = (m ((c : Thread nD τ).loc main_arg2) : S256x128.Idx → EReal) (ix2 (lower k) j) := by
  have e : (V m c main_v3 : S128x128.Idx → EReal)
      = truncf (F := Ideal) .bf16 (extractStridedSlice S128x128 ![128, 0]
          (m ((c : Thread nD τ).loc main_arg2) : S256x128.Idx → EReal) slices_S256x128_S128x128_128_0) bitsLt_bf16_f32 := by
    dsimp only [V, hostOps0]; after_results <;> rfl
  rw [e, truncf_apply]
  exact slice2_axis0_apply 128 _ _ k j (lower k) rfl

/-- The bias as one row. -/
theorem biasRow_apply (c : Dev nD) (j : Fin 128) :
    (V m c main_v4 : S1x128.Idx → EReal) (ix2 (0 : Fin 1) j)
      = (m ((c : Thread nD τ).loc main_arg3) : S128.Idx → EReal) (ix1 j) := by
  have e : (V m c main_v4 : S1x128.Idx → EReal)
      = shapeCast S1x128 (m ((c : Thread nD τ).loc main_arg3) : S128.Idx → EReal) shapeCasts_S128_S1x128 := by
    dsimp only [V, hostOps0]; after_results <;> rfl
  rw [e]
  exact shapeCast_a_1a_apply _ _ 0 j

/-- The output weight, a column [128, 1], as one row: entry (0, j) of the row is entry (j, 0) of the column. -/
theorem outRow_apply (c : Dev nD) (j : Fin 128) :
    (V m c main_v5 : S1x128.Idx → EReal) (ix2 (0 : Fin 1) j)
      = (m ((c : Thread nD τ).loc main_arg4) : S128x1.Idx → EReal) (ix2 j (0 : Fin 1)) := by
  have e : (V m c main_v5 : S1x128.Idx → EReal)
      = shapeCast S1x128 (m ((c : Thread nD τ).loc main_arg4) : S128x1.Idx → EReal) shapeCasts_S128x1_S1x128 := by
    dsimp only [V, hostOps0]; after_results <;> rfl
  rw [e]
  refine shapeCast_apply _ _ _ (ix2 j (0 : Fin 1)) ?_
  rw [Shape.rowMajor_val_two, Shape.rowMajor_val_two]
  show j.val * 1 + 0 = 0 * 128 + j.val
  omega

/-- The offset as a [1, 1] array. -/
theorem offset_apply (c : Dev nD) :
    (V m c main_v6 : S1x1.Idx → EReal) (ix2 (0 : Fin 1) (0 : Fin 1))
      = (m ((c : Thread nD τ).loc main_arg5) : S1.Idx → EReal) (ix1 (0 : Fin 1)) := by
  have e : (V m c main_v6 : S1x1.Idx → EReal)
      = shapeCast S1x1 (m ((c : Thread nD τ).loc main_arg5) : S1.Idx → EReal) shapeCasts_S1_S1x1 := by
    dsimp only [V, hostOps0]; after_results <;> rfl
  rw [e]
  exact shapeCast_a_1a_apply _ _ 0 0

/-! ## The blocks at a grid point -/

/-- Where each window's block sits: the two feature arrays and the result move down one block of rows per point, the
    other five stay at the origin (decided over the 125 points). -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- Row p of the source block at point t is row 2560·t + p of the source features. -/
theorem srcBlock_apply (c : Dev nD) (t : Fin cfg0.N) (p : Fin 2560) (k : Fin 128) (e : Fin 320000)
    (he : e.val = 2560 * t.val + p.val) :
    (iblk m c 0 t : Vec Ideal S2560x128 .f32) (ix2 p k)
      = (m ((c : Thread nD τ).loc main_arg0) : S320000x128.Idx → EReal) (ix2 e k) := by
  obtain ⟨⟨h0, h1⟩, -⟩ := index_facts t
  unfold iblk
  rw [View.read_apply]
  show V m c main_arg0 _ = _
  rw [V_main_arg0]
  congr 1
  funext a; apply Fin.ext
  match a with
  | ⟨0, _⟩ => show win0_0.index t (0 : Fin 2) * 2560 + 1 * p.val = e.val; omega
  | ⟨1, _⟩ => show win0_0.index t (1 : Fin 2) * 128 + 1 * k.val = k.val; omega

/-- Row p of the destination block at point t is row 2560·t + p of the destination features. -/
theorem dstBlock_apply (c : Dev nD) (t : Fin cfg0.N) (p : Fin 2560) (k : Fin 128) (e : Fin 320000)
    (he : e.val = 2560 * t.val + p.val) :
    (iblk m c 1 t : Vec Ideal S2560x128 .f32) (ix2 p k)
      = (m ((c : Thread nD τ).loc main_arg1) : S320000x128.Idx → EReal) (ix2 e k) := by
  obtain ⟨-, ⟨h0, h1⟩, -⟩ := index_facts t
  unfold iblk
  rw [View.read_apply]
  show V m c main_arg1 _ = _
  rw [V_main_arg1]
  congr 1
  funext a; apply Fin.ext
  match a with
  | ⟨0, _⟩ => show win0_1.index t (0 : Fin 2) * 2560 + 1 * p.val = e.val; omega
  | ⟨1, _⟩ => show win0_1.index t (1 : Fin 2) * 128 + 1 * k.val = k.val; omega

/-- The upper half of the weight, handed over whole. -/
theorem upperBlock_apply (c : Dev nD) (t : Fin cfg0.N) (k j : Fin 128) :
    (iblk m c 2 t : Vec Ideal S128x128 .bf16) (ix2 k j)
      = (m ((c : Thread nD τ).loc main_arg2) : S256x128.Idx → EReal) (ix2 (upper k) j) := by
  obtain ⟨-, -, ⟨h0, h1⟩, -⟩ := index_facts t
  rw [← upperHalf_apply m c k j]
  unfold iblk
  rw [View.read_apply]
  show V m c main_v1 _ = V m c main_v1 _
  congr 1
  funext a; apply Fin.ext
  match a with
  | ⟨0, _⟩ => show win0_2.index t (0 : Fin 2) * 128 + 1 * k.val = k.val; omega
  | ⟨1, _⟩ => show win0_2.index t (1 : Fin 2) * 128 + 1 * j.val = j.val; omega

/-- The lower half of the weight, handed over whole. -/
theorem lowerBlock_apply (c : Dev nD) (t : Fin cfg0.N) (k j : Fin 128) :
    (iblk m c 3 t : Vec Ideal S128x128 .bf16) (ix2 k j)
      = (m ((c : Thread nD τ).loc main_arg2) : S256x128.Idx → EReal) (ix2 (lower k) j) := by
  obtain ⟨-, -, -, ⟨h0, h1⟩, -⟩ := index_facts t
  rw [← lowerHalf_apply m c k j]
  unfold iblk
  rw [View.read_apply]
  show V m c main_v3 _ = V m c main_v3 _
  congr 1
  funext a; apply Fin.ext
  match a with
  | ⟨0, _⟩ => show win0_3.index t (0 : Fin 2) * 128 + 1 * k.val = k.val; omega
  | ⟨1, _⟩ => show win0_3.index t (1 : Fin 2) * 128 + 1 * j.val = j.val; omega

/-- The bias row, handed over whole. -/
theorem biasBlock_apply (c : Dev nD) (t : Fin cfg0.N) (j : Fin 128) :
    (iblk m c 4 t : Vec Ideal S1x128 .f32) (ix2 (0 : Fin 1) j)
      = (m ((c : Thread nD τ).loc main_arg3) : S128.Idx → EReal) (ix1 j) := by
  obtain ⟨-, -, -, -, ⟨h0, h1⟩, -⟩ := index_facts t
  rw [← biasRow_apply m c j]
  unfold iblk
  rw [View.read_apply]
  show V m c main_v4 _ = V m c main_v4 _
  congr 1
  funext a; apply Fin.ext
  match a with
  | ⟨0, _⟩ => show win0_4.index t (0 : Fin 2) * 1 + 1 * 0 = 0; omega
  | ⟨1, _⟩ => show win0_4.index t (1 : Fin 2) * 128 + 1 * j.val = j.val; omega

/-- The output weight's row, handed over whole. -/
theorem outBlock_apply (c : Dev nD) (t : Fin cfg0.N) (j : Fin 128) :
    (iblk m c 5 t : Vec Ideal S1x128 .f32) (ix2 (0 : Fin 1) j)
      = (m ((c : Thread nD τ).loc main_arg4) : S128x1.Idx → EReal) (ix2 j (0 : Fin 1)) := by
  obtain ⟨-, -, -, -, -, ⟨h0, h1⟩, -⟩ := index_facts t
  rw [← outRow_apply m c j]
  unfold iblk
  rw [View.read_apply]
  show V m c main_v5 _ = V m c main_v5 _
  congr 1
  funext a; apply Fin.ext
  match a with
  | ⟨0, _⟩ => show win0_5.index t (0 : Fin 2) * 1 + 1 * 0 = 0; omega
  | ⟨1, _⟩ => show win0_5.index t (1 : Fin 2) * 128 + 1 * j.val = j.val; omega

/-- The offset, handed over whole. -/
theorem offsetBlock_apply (c : Dev nD) (t : Fin cfg0.N) :
    (iblk m c 6 t : Vec Ideal S1x1 .f32) (ix2 (0 : Fin 1) (0 : Fin 1))
      = (m ((c : Thread nD τ).loc main_arg5) : S1.Idx → EReal) (ix1 (0 : Fin 1)) := by
  obtain ⟨-, -, -, -, -, -, ⟨h0, h1⟩, -⟩ := index_facts t
  rw [← offset_apply m c]
  unfold iblk
  rw [View.read_apply]
  show V m c main_v6 _ = V m c main_v6 _
  congr 1
  funext a; apply Fin.ext
  match a with
  | ⟨0, _⟩ => show win0_6.index t (0 : Fin 2) * 1 + 1 * 0 = 0; omega
  | ⟨1, _⟩ => show win0_6.index t (1 : Fin 2) * 1 + 1 * 0 = 0; omega

end Cert.KernelIdeal.Operands

end
-- ==== Proof.KernelScore.lean ====
/-
  The kernel's result array is the array of edge scores.

  At grid point t the body stores, for each of its 2560 rows p, the score of the edge whose feature rows are row p of the
  two staged feature blocks (`BlockScore.payload_apply`). Those are rows 2560·t + p of the source and destination
  arrays, and the other staged operands are the weight's two halves, the bias, the output weight and the offset
  (`Operands`), so the stored row is entry 2560·t + p of `EdgeScore.score` of the argument arrays: point t writes back
  block t of that array. Row r of the result lies in the block of point r / 2560, so the 125 blocks fill the result, and
  the result array ends holding `score` of the arguments.
-/
import proofs.«111625_g24455543783494_cont_8to1_600_4_alg».proof.Proof.Gen.KernelIdeal.Value
import proofs.«111625_g24455543783494_cont_8to1_600_4_alg».proof.Proof.EdgeScore
import proofs.«111625_g24455543783494_cont_8to1_600_4_alg».proof.Proof.BlockScore
import proofs.«111625_g24455543783494_cont_8to1_600_4_alg».proof.Proof.Operands
import Idealize.ShloMosaic.Lib.Pipeline.Value
import Idealize.ShloMosaic.Lib.Tactic

noncomputable section

namespace Cert.KernelIdeal.KernelScore

open Cert.KernelIdeal Cert.KernelIdeal.Gen Cert.KernelIdeal.Value Idealize.ShloMosaic Idealize.ShloMosaic.TcCoe Idealize.SL.Sem
open Idealize.ShloMosaic.ValueIdx Cert.EdgeScore
open Idealize.ShloMosaic.Pipeline (Dat)

variable (m : (ℓ : Loc nD τ sig) → Buf (Elt Ideal) ℓ) (ρ : Dev nD → PrngReg)

/-- The body loads and stores whole staging buffers: every rectangle starts at the origin. -/
theorem origin : (![0, 0] : Fin 2 → Nat) = fun _ => 0 := funext fun a => by fin_cases a <;> rfl

/-- The scores of all edges, of the argument arrays as launched on core c. -/
abbrev scores (c : Dev nD) : S320000x1.Idx → EReal :=
  score (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Point t writes back block t of the scores. -/
theorem flushed_eq (c : Dev nD) (t : Fin cfg0.N) :
    (dats m 0 c).flushed 7 t = ((cfg0.win 7).blk t).view.read (Elt Ideal) (scores m c) := by
  obtain ⟨-, -, -, -, -, -, -, ⟨h0, h1⟩⟩ := Operands.index_facts t
  rw [flushed7]
  unfold out0_7
  rw [View.canon_unit_zero origin]
  simp only [View.ld_unit_zero (S := S2560x128) origin, View.ld_unit_zero (S := S128x128) origin,
    View.ld_unit_zero (S := S1x128) origin, View.ld_unit_zero (S := S1x1) origin]
  funext y
  obtain ⟨p, u, rfl⟩ : ∃ (p : Fin 2560) (u : Fin 1), y = ix2 p u := ⟨y 0, y 1, eq_ix2 y⟩
  obtain rfl : u = 0 := Subsingleton.elim u 0
  have hlt : 2560 * t.val + p.val < 320000 := by
    have ht : t.val < 125 := lt_of_lt_of_eq t.isLt N_0
    have hp := p.isLt
    omega
  have hemb : ((cfg0.win 7).blk t).view.emb (ix2 p (0 : Fin 1)) = ix2 (⟨2560 * t.val + p.val, hlt⟩ : Fin 320000) (0 : Fin 1) := by
    funext a; apply Fin.ext
    match a with
    | ⟨0, _⟩ => show win0_7.index t (0 : Fin 2) * 2560 + 1 * p.val = 2560 * t.val + p.val; omega
    | ⟨1, _⟩ => show win0_7.index t (1 : Fin 2) * 1 + 1 * 0 = 0; omega
  show k0_pay1 (F := Ideal) (iblk m c 0 t) (iblk m c 1 t) (iblk m c 2 t) (iblk m c 3 t) (iblk m c 4 t) (iblk m c 5 t) (iblk m c 6 t) (ix2 p (0 : Fin 1))
    = scores m c (((cfg0.win 7).blk t).view.emb (ix2 p (0 : Fin 1)))
  rw [hemb]
  refine (BlockScore.payload_apply (iblk m c 0 t) (iblk m c 1 t) (iblk m c 2 t) (iblk m c 3 t) (iblk m c 4 t) (iblk m c 5 t) (iblk m c 6 t) p).trans ?_
  have e0 := funext fun k => Operands.srcBlock_apply m c t p k ⟨2560 * t.val + p.val, hlt⟩ rfl
  have e1 := funext fun k => Operands.dstBlock_apply m c t p k ⟨2560 * t.val + p.val, hlt⟩ rfl
  have e2 := funext fun k => funext fun j => Operands.upperBlock_apply m c t k j
  have e3 := funext fun k => funext fun j => Operands.lowerBlock_apply m c t k j
  have e4 := funext fun j => Operands.biasBlock_apply m c t j
  have e5 := funext fun j => Operands.outBlock_apply m c t j
  have e6 := Operands.offsetBlock_apply m c t
  rw [e0, e1, e2, e3, e4, e5, e6]
  rfl

/-- An index of the result is in point t's block iff each coordinate is in the block's range on its axis. -/
theorem mem_blk (t : Fin cfg0.N) (i : S320000x1.Idx) :
    i ∈ ((cfg0.win 7).blk t).view.set ↔ ∀ a : Fin 2, win0_7.index t a * S2560x1.size a ≤ (i a).val ∧ (i a).val < win0_7.index t a * S2560x1.size a + S2560x1.size a := by
  show i ∈ ((View.whole main_v7).slice (win0_7.rect t)).set ↔ _
  rw [View.set_slice_whole, Rect.mem_set_unit]
  exact Iff.rfl

/-- Every index of the result is in the block of some point: row r in that of point r / 2560. -/
theorem covered (i : S320000x1.Idx) :
    ∃ t : Fin cfg0.N, (cfg0.win 7).flush t = true ∧ i ∈ ((cfg0.win 7).blk t).view.set := by
  have hi0 : (i 0).val < 320000 := (i 0).isLt
  have hi1 : (i 1).val < 1 := (i 1).isLt
  obtain ⟨t, ht⟩ : ∃ t : Fin cfg0.N, t.val = (i 0).val / 2560 :=
    ⟨⟨(i 0).val / 2560, by show _ < grid0.N; rw [N_0]; omega⟩, rfl⟩
  obtain ⟨-, -, -, -, -, -, -, ⟨h0, h1⟩⟩ := Operands.index_facts t
  refine ⟨t, flush0_7 t, ?_⟩
  rw [mem_blk]
  intro a
  match a with
  | ⟨0, _⟩ => show win0_7.index t (0 : Fin 2) * 2560 ≤ (i 0).val ∧ (i 0).val < win0_7.index t (0 : Fin 2) * 2560 + 2560; omega
  | ⟨1, _⟩ => show win0_7.index t (1 : Fin 2) * 1 ≤ (i 1).val ∧ (i 1).val < win0_7.index t (1 : Fin 2) * 1 + 1; omega

/-- The result array after the run is the scores of the argument arrays. -/
theorem final (c : Dev nD) : (dats m 0 c).arrAt 7 cfg0.N = scores m c :=
  (dats m 0 c).arrAt_eq_of_cover 7 (scores m c) (fun t _ => flushed_eq m c t) covered

/-- Every weakly fair execution of the kernel's program terminates with the result array at the scores of the argument
    arrays and the argument arrays unchanged. -/
theorem run : θ_run defs (onTc (τ := τ) (main (F := Ideal))) ⟨m, fun _ => 0, ρ⟩ fun r => ∀ c : Dev nD,
      r.2.mem ((c : Thread nD τ).loc main_v7) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.KernelScore

end
-- ==== Proof.LibConcat2.lean ====
/-
  Two arrays [R, n₁] and [R, n₂] laid side by side along the lanes, read at an index.

  The concatenation along axis 1 is an [R, n₁ + n₂] array. Its entry in row r at one of the first n₁ lanes is the first
  piece's entry in that row and lane; at lane n₁ + q it is the second piece's entry in row r, lane q. So a row of the
  concatenation is the first piece's row followed by the second piece's row.
-/
import Idealize.ShloMosaic.Lib.Pipeline.Value
import Idealize.ShloMosaic.Lib.ValueIdx

namespace Cert.LibConcat2

open Idealize.ShloMosaic Idealize.ShloMosaic.ValueIdx

variable {α : Type} {R n₁ n₂ w : Nat}

/-- Off the joined axis a piece's coordinates are the result's. -/
private theorem off_axis {n : Nat} (r : Fin R) (l : Fin w) (i : (⟨2, ![R, n]⟩ : Shape).Idx) (hi : (i 0).val = r.val) :
    ∀ bb : Fin (⟨2, ![R, n]⟩ : Shape).rank, bb.cast (rfl : (⟨2, ![R, n]⟩ : Shape).rank = (⟨2, ![R, w]⟩ : Shape).rank) ≠ (1 : Fin 2) →
      (i bb).val = ((ix2 r l : (⟨2, ![R, w]⟩ : Shape).Idx) (bb.cast rfl)).val := by
  intro bb hbb
  match bb with
  | ⟨0, _⟩ => exact hi
  | ⟨1, _⟩ => exact absurd rfl hbb

/-- A lane of the first piece. -/
theorem concatenate2_left (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₁) (hl : l.val = q.val) :
    concatenate ⟨2, ![R, w]⟩ (1 : Fin 2) [⟨⟨2, ![R, n₁]⟩, a⟩, ⟨⟨2, ![R, n₂]⟩, b⟩] h (ix2 r l) = a (ix2 r q) :=
  concatenate_apply_piece (1 : Fin 2) _ h (ix2 r l) 0 (by simp) ⟨2, ![R, n₁]⟩ a rfl rfl 0 rfl
    (ix2 r q) (off_axis r l _ rfl) (by show 0 + q.val = l.val; omega)

/-- A lane of the second piece. -/
theorem concatenate2_right (a : (⟨2, ![R, n₁]⟩ : Shape).Idx → α) (b : (⟨2, ![R, n₂]⟩ : Shape).Idx → α)
    (h : Shape.Concatenates ([(⟨⟨2, ![R, n₁]⟩, a⟩ : (s : Shape) × (s.Idx → α)), ⟨⟨2, ![R, n₂]⟩, b⟩].map (·.1))
      ⟨2, ![R, w]⟩ (1 : Fin 2))
    (r : Fin R) (l : Fin w) (q : Fin n₂) (hl : l.val = n₁ + q.val) :
    concatenate ⟨2, ![R, w]⟩ (1 : Fin 2) [⟨⟨2, ![R, n₁]⟩, a⟩, ⟨⟨2, ![R, n₂]⟩, b⟩] h (ix2 r l) = b (ix2 r q) :=
  concatenate_apply_piece (1 : Fin 2) _ h (ix2 r l) 1 (by simp) ⟨2, ![R, n₂]⟩ b rfl rfl n₁ (by simp)
    (ix2 r q) (off_axis r l _ rfl) (by show n₁ + q.val = l.val; omega)

end Cert.LibConcat2
-- ==== Proof.RefScore.lean ====
/-
  The reference computes the edge scores.

  The reference lays the source and destination rows side by side into one [320000, 256] array, multiplies it by the
  whole [256, 128] weight, adds the bias, applies the rectifier, multiplies by the [128, 1] output weight and adds the
  offset. Entry (e, j) of the first product is a sum over the 256 columns of the joined row; its first 128 columns are
  edge e's source row against the weight's upper half, its last 128 the destination row against the lower half. Splitting
  the sum there gives the hidden unit in the form `EdgeScore.rowScore` has it, and the rest is read off stage by stage.
-/
import proofs.«111625_g24455543783494_cont_8to1_600_4_alg».proof.Proof.Gen.ReferenceIdeal.Read
import proofs.«111625_g24455543783494_cont_8to1_600_4_alg».proof.Proof.EdgeScore
import proofs.«111625_g24455543783494_cont_8to1_600_4_alg».proof.Proof.LibConcat2

noncomputable section

open scoped BigOperators

namespace Cert.ReferenceIdeal.RefScore

open Cert.ReferenceIdeal Cert.ReferenceIdeal.Read Idealize.ShloMosaic Idealize.ShloMosaic.ValueIdx Cert.EdgeScore

variable (x0 x1 : (⟨S320000x128, .f32⟩ : BufTy).Contents (Elt Ideal)) (x2 : (⟨S256x128, .f32⟩ : BufTy).Contents (Elt Ideal))
  (x3 : (⟨S128, .f32⟩ : BufTy).Contents (Elt Ideal)) (x4 : (⟨S128x1, .f32⟩ : BufTy).Contents (Elt Ideal))
  (x5 : (⟨S1, .f32⟩ : BufTy).Contents (Elt Ideal))

/-- The joined row at one of its first 128 columns is the source row. -/
theorem joined_upper (e : Fin 320000) (k : Fin 128) : val_main_v0 (F := Ideal) x0 x1 (ix2 e (upper k)) = x0 (ix2 e k) := by
  unfold val_main_v0
  exact Cert.LibConcat2.concatenate2_left x0 x1 _ e (upper k) k rfl

/-- The joined row at column 128 + k is the destination row at k. -/
theorem joined_lower (e : Fin 320000) (k : Fin 128) : val_main_v0 (F := Ideal) x0 x1 (ix2 e (lower k)) = x1 (ix2 e k) := by
  unfold val_main_v0
  exact Cert.LibConcat2.concatenate2_right x0 x1 _ e (lower k) k rfl

/-- Hidden unit j of edge e, after the rectifier. -/
theorem hidden_apply (e : Fin 320000) (j : Fin 128) :
    val_main_v5 (F := Ideal) x0 x1 x2 x3 (ix2 e j)
      = max (((∑ k : Fin 128, x0 (ix2 e k) * x2 (ix2 (upper k) j)) + ∑ k : Fin 128, x1 (ix2 e k) * x2 (ix2 (lower k) j)) + x3 (ix1 j))
          (Ideal.ofBits .f32 0x00000000#32) := by
  have el : ∀ k : Fin 256, lidx_main_v1 (ix2 e j) k = ix2 e k := fun k => funext fun a => Fin.ext (by
    match a with
    | ⟨0, _⟩ => rfl
    | ⟨1, _⟩ => rfl)
  have er : ∀ k : Fin 256, ridx_main_v1 (ix2 e j) k = ix2 k j := fun k => funext fun a => Fin.ext (by
    match a with
    | ⟨0, _⟩ => rfl
    | ⟨1, _⟩ => rfl)
  have eb : idx_main_v2 (idx_main_v3 (ix2 e j)) = ix1 j := funext fun a => Fin.ext (by
    match a with
    | ⟨0, _⟩ => rfl)
  rw [val_main_v5_apply, val_main_v4_apply, val_main_v1_apply, val_main_v3_apply, val_main_v2_apply,
    val_main_call0_v0_apply, val_main_call0_cst_apply, sum_halves]
  simp only [el, er, eb, joined_upper, joined_lower]
  rfl

/-- The reference's result array is `score` of the six argument arrays. -/
theorem result_eq : val_main_v9 (F := Ideal) x0 x1 x2 x3 x4 x5 = score x0 x1 x2 x3 x4 x5 := by
  funext i
  obtain ⟨e, u, rfl⟩ : ∃ (e : Fin 320000) (u : Fin 1), i = ix2 e u := ⟨i 0, i 1, eq_ix2 i⟩
  obtain rfl : u = 0 := Subsingleton.elim u 0
  have el : ∀ j : Fin 128, lidx_main_v6 (ix2 e (0 : Fin 1)) j = ix2 e j := fun j => funext fun a => Fin.ext (by
    match a with
    | ⟨0, _⟩ => rfl
    | ⟨1, _⟩ => rfl)
  have er : ∀ j : Fin 128, ridx_main_v6 (ix2 e (0 : Fin 1)) j = ix2 j (0 : Fin 1) := fun j => funext fun a => Fin.ext (by
    match a with
    | ⟨0, _⟩ => rfl
    | ⟨1, _⟩ => rfl)
  have eo : idx_main_v7 (idx_main_v8 (ix2 e (0 : Fin 1))) = ix1 (0 : Fin 1) := funext fun a => Fin.ext (by
    match a with
    | ⟨0, _⟩ => rfl)
  rw [val_main_v9_apply, val_main_v6_apply, val_main_v8_apply, val_main_v7_apply]
  simp only [el, er, eo, hidden_apply]
  rfl

end Cert.ReferenceIdeal.RefScore

end
-- ==== Proof.lean ====
/-
  An edge scorer computed block by block is the edge scorer computed whole, over the extended reals.

  Both programs take source and destination features [320000, 128], a hidden layer's weight [256, 128] and bias [128], an
  output weight [128, 1] and an offset [1], and return one score per edge: with x the two feature rows of an edge laid
  side by side, score = relu(x · W1 + b1) · W2 + b2.

  The reference joins the two feature arrays into [320000, 256] and takes one product with the whole weight. The kernel
  never joins them: it cuts the weight into its upper and lower halves, walks the edges in 125 blocks of 2560, and for
  each block adds the product of the source rows with the upper half to the product of the destination rows with the
  lower half; it then takes the last layer as a sum along the hidden units instead of a product with a column.

  Over the extended reals a change of float format is the identity, a product into a zero accumulator and a sum from
  zero are plain finite sums, so both programs compute, for edge e,
      (Σ_j max ((Σ_k src[e,k]·W1[k,j]) + (Σ_k dst[e,k]·W1[128+k,j]) + b1[j]) 0 · W2[j,0]) + b2[0].
  The only law between the two arrangements is that a sum over the 256 rows of the weight is the sum over its first 128
  rows plus the sum over its last 128: a regrouping of a finite sum, valid on the extended reals without assuming
  anything finite, so the precondition is never opened.

  `EdgeScore` states that function; `RefScore` reads the reference's run as it; `BlockScore` reads one row of what the
  kernel's body stores as it; `Operands` says what the body is handed at each block; `KernelScore` puts the blocks
  together into the kernel's result array. The three programs' termination and unchanged arguments come from the
  generated modules; nothing was rewritten when the kernel was idealized, so that conjunct is `True`.
-/
import proofs.«111625_g24455543783494_cont_8to1_600_4_alg».proof.Defs
import proofs.«111625_g24455543783494_cont_8to1_600_4_alg».proof.Proof.Gen.Kernel
import proofs.«111625_g24455543783494_cont_8to1_600_4_alg».proof.Proof.Gen.Kernel.Skeleton
import proofs.«111625_g24455543783494_cont_8to1_600_4_alg».proof.Proof.Gen.Kernel.Launch
import proofs.«111625_g24455543783494_cont_8to1_600_4_alg».proof.Proof.Gen.Kernel.Points
import proofs.«111625_g24455543783494_cont_8to1_600_4_alg».proof.Proof.Gen.Kernel.Frame
import proofs.«111625_g24455543783494_cont_8to1_600_4_alg».proof.Proof.Gen.KernelIdeal
import proofs.«111625_g24455543783494_cont_8to1_600_4_alg».proof.Proof.Gen.KernelIdeal.Skeleton
import proofs.«111625_g24455543783494_cont_8to1_600_4_alg».proof.Proof.Gen.KernelIdeal.Launch
import proofs.«111625_g24455543783494_cont_8to1_600_4_alg».proof.Proof.Gen.KernelIdeal.Points
import proofs.«111625_g24455543783494_cont_8to1_600_4_alg».proof.Proof.Gen.KernelIdeal.Frame
import proofs.«111625_g24455543783494_cont_8to1_600_4_alg».proof.Proof.Gen.KernelIdeal.Value
import proofs.«111625_g24455543783494_cont_8to1_600_4_alg».proof.Proof.Gen.ReferenceIdeal
import proofs.«111625_g24455543783494_cont_8to1_600_4_alg».proof.Proof.Gen.ReferenceIdeal.Run
import proofs.«111625_g24455543783494_cont_8to1_600_4_alg».proof.Proof.Gen.ReferenceIdeal.Read
import proofs.«111625_g24455543783494_cont_8to1_600_4_alg».proof.Proof.Gen.Pre_finite_inputs
import proofs.«111625_g24455543783494_cont_8to1_600_4_alg».proof.Proof.KernelScore
import proofs.«111625_g24455543783494_cont_8to1_600_4_alg».proof.Proof.RefScore
import Idealize.ShloMosaic.Adequacy
import Idealize.ShloMosaic.Init

noncomputable section

namespace Cert.Proof

open Idealize.ShloMosaic Idealize.SL.Sem

/-- The kernel as printed terminates without a fault and leaves its arguments as they were. -/
theorem frame_kernel : Cert.frame_Kernel := fun m ρ _ => Cert.Kernel.Gen.frame m ρ

/-- So does the kernel read over the extended reals. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Idealizing the kernel rewrote none of its operations. -/
theorem preserves : Cert.preserves_Kernel_KernelIdeal := trivial

/-- From memories that agree on the six arguments, the kernel's result array ends at the scores of its arguments
    (`KernelScore.run`) and the reference's at the scores of its own (`RefScore.result_eq`): the same array. -/
theorem algebraic : Cert.algebraic_KernelIdeal_ReferenceIdeal := by
  intro m ρ m' ρ' _ hagree
  refine ⟨fun c => Cert.KernelIdeal.KernelScore.scores m c, Cert.KernelIdeal.KernelScore.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefScore.result_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
